-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S4096x1024 : Shape := ⟨2, ![4096, 1024]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4x1024, .f32⟩
  | .hbm, ⟨12, _⟩ => ⟨S1x4096, .f32⟩
  | .hbm, ⟨13, _⟩ => ⟨S16384x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x1024x1024_S4096x1024 : S4x1024x1024.ShapeCasts S4096x1024
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S16384x4x1024 : Shape := ⟨3, ![16384, 4, 1024]⟩
abbrev S1x4x1024 : Shape := ⟨3, ![1, 4, 1024]⟩
abbrev S16384x1x1024 : Shape := ⟨3, ![16384, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S16384x4x1024, .f32⟩
  | .hbm, ⟨8, _⟩ => ⟨S1x4x1024, .f32⟩
  | .hbm, ⟨9, _⟩ => ⟨S16384x4x1024, .f32⟩
  | .hbm, ⟨10, _⟩ => ⟨S16384x4x1024, .f32⟩
  | .hbm, ⟨11, _⟩ => ⟨S16384x4x1024, .f32⟩
  | .hbm, ⟨12, _⟩ => ⟨S1x4x1024, .f32⟩
  | .hbm, ⟨13, _⟩ => ⟨S16384x4x1024, .f32⟩
  | .hbm, ⟨14, _⟩ => ⟨S16384x4x1024, .f32⟩
  | .hbm, ⟨15, _⟩ => ⟨S16384x4x1024, .f32⟩
  | .hbm, ⟨16, _⟩ => ⟨S16384x1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1x1024, .f32⟩
  | .hbm, ⟨37, _⟩ => ⟨S16384x1024, .f32⟩
  | .hbm, ⟨38, _⟩ => ⟨S16384x1024, .f32⟩
  | .hbm, ⟨39, _⟩ => ⟨S16384x1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  slices_S16384x4x1024_S16384x1x1024_0_0_0 : S16384x4x1024.Slices ![0, 0, 0] S16384x1x1024
  shapeCasts_S16384x1x1024_S16384x1024 : S16384x1x1024.ShapeCasts S16384x1024
  bcast_S_S16384x1024 : S_.BroadcastsInDim S16384x1024 (![] : Fin 0 → Fin S16384x1024.rank)
  slices_S16384x4x1024_S16384x1x1024_0_1_0 : S16384x4x1024.Slices ![0, 1, 0] S16384x1x1024
  slices_S16384x4x1024_S16384x1x1024_0_2_0 : S16384x4x1024.Slices ![0, 2, 0] S16384x1x1024
  slices_S16384x4x1024_S16384x1x1024_0_3_0 : S16384x4x1024.Slices ![0, 3, 0] S16384x1x1024
  dot_S16384x1024_S4x1024x1024_S16384x4x1024_1_2_0_01_n_n_wf : DotDims.WF S16384x1024 S4x1024x1024 S16384x4x1024 [1] [2] [0] [0, 1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf

class Facts : Prop extends Facts₀ where

variable [Facts]
-- ==== Proof.Spec.lean ====
/-
  One step of an LSTM cell over a batch, as one function of the argument arrays, index by index, on the extended reals.

  For batch row `b`, gate `g` (input, forget, cell, output) and hidden unit `j` the gate's pre-activation is
  `(∑ k, x (b, k) · Wi (g, j, k) + bi (g, j)) + (∑ k, h (b, k) · Wh (g, j, k) + bh (g, j))` (`gate`). The new cell state is
  `σ(forget) · c + σ(input) · tanh(cell)` (`newCell`) and the new hidden state `σ(output) · tanh(new cell)` (`newHidden`),
  with `σ x = 1 / (1 + e⁻ˣ)` the logistic function and the conventions of the extended reals at the infinities.

  Two laws join the two programs to this function. The pre-activation grouped the other way,
  `(∑ x·Wi + ∑ h·Wh) + (bi + bh)`, is the same extended real: addition there is commutative and associative, at the
  infinities too, so no input need be finite (`gate_regroup`). And the quotient `1 / (1 + exp (-x))` written with the
  float word of one is the logistic function (`logistic_spelled`).
-/
import Idealize.ShloMosaic.PureOps.Ideal.Laws
import Idealize.ShloMosaic.Lib.ValueIdx
import Idealize.ShloMosaic.Lib.IdealHost

noncomputable section

namespace Cert.Lstm

open Idealize.ShloMosaic Idealize.ShloMosaic.ValueIdx

/-- A batch of rows: 16384 rows of 1024 entries. -/
abbrev Rows : Type := (⟨2, ![16384, 1024]⟩ : Shape).Idx → EReal
/-- The four gates' weight matrices, `(gate, output unit, input unit)`. -/
abbrev Weights : Type := (⟨3, ![4, 1024, 1024]⟩ : Shape).Idx → EReal
/-- The four gates' bias vectors. -/
abbrev Biases : Type := (⟨2, ![4, 1024]⟩ : Shape).Idx → EReal

/-- Gate `g`'s pre-activation for batch row `b` at hidden unit `j`: each of the two affine maps with its own bias,
    then their sum. -/
def gate (x h : Rows) (Wi Wh : Weights) (bi bh : Biases) (b : Fin 16384) (g : Fin 4) (j : Fin 1024) : EReal :=
  ((∑ k : Fin 1024, x (ix2 b k) * Wi (ix3 g j k)) + bi (ix2 g j))
    + ((∑ k : Fin 1024, h (ix2 b k) * Wh (ix3 g j k)) + bh (ix2 g j))

/-- The two products added first and the two biases added first give the same pre-activation: a sum of four extended
    reals does not depend on its grouping. -/
theorem gate_regroup (x h : Rows) (Wi Wh : Weights) (bi bh : Biases) (b : Fin 16384) (g : Fin 4) (j : Fin 1024) :
    ((∑ k : Fin 1024, x (ix2 b k) * Wi (ix3 g j k)) + (∑ k : Fin 1024, h (ix2 b k) * Wh (ix3 g j k)))
      + (bi (ix2 g j) + bh (ix2 g j)) = gate x h Wi Wh bi bh b g j :=
  add_add_add_comm _ _ _ _

/-- The new cell state: the forget gate times the old state plus the input gate times the candidate. -/
def newCell (x h c : Rows) (Wi Wh : Weights) (bi bh : Biases) : Rows := fun i =>
  Ideal.logistic (gate x h Wi Wh bi bh (i 0) 1 (i 1)) * c i
    + Ideal.logistic (gate x h Wi Wh bi bh (i 0) 0 (i 1)) * Ideal.tanh (gate x h Wi Wh bi bh (i 0) 2 (i 1))

/-- The new hidden state: the output gate times the hyperbolic tangent of the new cell state. -/
def newHidden (x h c : Rows) (Wi Wh : Weights) (bi bh : Biases) : Rows := fun i =>
  Ideal.logistic (gate x h Wi Wh bi bh (i 0) 3 (i 1)) * Ideal.tanh (newCell x h c Wi Wh bi bh i)

/-- The logistic function spelt as a quotient, `1 / (1 + exp (-x))`, with the float word of one. -/
theorem logistic_spelled (x : EReal) :
    Ideal.div (Ideal.ofBits .f32 0x3F800000#32) (Ideal.ofBits .f32 0x3F800000#32 + Ideal.exp (-x)) = Ideal.logistic x := by
  rw [Ideal.ofBits_one_f32]; rfl

end Cert.Lstm

end
-- ==== Proof.RefIsSpec.lean ====
/-
  The reference's two results are the LSTM step of Spec.lean.

  The reference forms one array of pre-activations `[row, gate, unit]` — each of the two products summed over the input
  unit, its bias spread over the rows and added, then the two added — and reads the four gates off it as the slices
  `[:, g, :]` recast to `[row, unit]`. Read at an index, the pre-activation at `(b, g, j)` is `gate … b g j`
  (`gate_read`); a slice recast at `(b, j)` reads it at `(b, g, j)` (`slice0` … `slice3`); the input, forget and output
  gates put it through `1 / (1 + exp (-·))`, which is the logistic function, and the cell gate through `tanh`; the
  rest is entry by entry.
-/
import proofs.«154492_j23974507446845_2_alg».proof.Proof.Gen.ReferenceIdeal.Read
import proofs.«154492_j23974507446845_2_alg».proof.Proof.Spec

noncomputable section

namespace Cert.Lstm.Ref

open Idealize.ShloMosaic Idealize.ShloMosaic.ValueIdx Cert.ReferenceIdeal Cert.ReferenceIdeal.Read Cert.Lstm

variable (x0 x1 x2 : (⟨S16384x1024, .f32⟩ : BufTy).Contents (Elt Ideal))
  (x3 x4 : (⟨S4x1024x1024, .f32⟩ : BufTy).Contents (Elt Ideal)) (x5 x6 : (⟨S4x1024, .f32⟩ : BufTy).Contents (Elt Ideal))

/-! ## Where each operation reads its operands -/

theorem lidx_v0 (b : Fin 16384) (g : Fin 4) (j k : Fin 1024) : lidx_main_v0 (ix3 b g j) k = ix2 b k :=
  funext fun a => by match a with | ⟨0, _⟩ => rfl | ⟨1, _⟩ => rfl
theorem ridx_v0 (b : Fin 16384) (g : Fin 4) (j k : Fin 1024) : ridx_main_v0 (ix3 b g j) k = ix3 g j k :=
  funext fun a => by match a with | ⟨0, _⟩ => rfl | ⟨1, _⟩ => rfl | ⟨2, _⟩ => rfl
theorem lidx_v4 (b : Fin 16384) (g : Fin 4) (j k : Fin 1024) : lidx_main_v4 (ix3 b g j) k = ix2 b k :=
  funext fun a => by match a with | ⟨0, _⟩ => rfl | ⟨1, _⟩ => rfl
theorem ridx_v4 (b : Fin 16384) (g : Fin 4) (j k : Fin 1024) : ridx_main_v4 (ix3 b g j) k = ix3 g j k :=
  funext fun a => by match a with | ⟨0, _⟩ => rfl | ⟨1, _⟩ => rfl | ⟨2, _⟩ => rfl
theorem bias_v2 (b : Fin 16384) (g : Fin 4) (j : Fin 1024) : idx_main_v1 (idx_main_v2 (ix3 b g j)) = ix2 g j :=
  funext fun a => by match a with | ⟨0, _⟩ => rfl | ⟨1, _⟩ => rfl
theorem bias_v6 (b : Fin 16384) (g : Fin 4) (j : Fin 1024) : idx_main_v5 (idx_main_v6 (ix3 b g j)) = ix2 g j :=
  funext fun a => by match a with | ⟨0, _⟩ => rfl | ⟨1, _⟩ => rfl

/-- The slice `[:, 0, :]` recast to `[row, unit]` reads `(b, 0, j)` at `(b, j)`. -/
theorem slice0 (b : Fin 16384) (j : Fin 1024) : idx_main_v9 (idx_main_v10 (ix2 b j)) = ix3 b 0 j := by
  have hb := b.isLt; have hj := j.isLt
  funext a; apply Fin.ext
  match a with
  | ⟨0, _⟩ => show (b.val * 1024 + j.val) / 1024 = b.val; omega
  | ⟨1, _⟩ => rfl
  | ⟨2, _⟩ => show (b.val * 1024 + j.val) % 1024 = j.val; omega
/-- The slice `[:, 1, :]` recast reads `(b, 1, j)`. -/
theorem slice1 (b : Fin 16384) (j : Fin 1024) : idx_main_v17 (idx_main_v18 (ix2 b j)) = ix3 b 1 j := by
  have hb := b.isLt; have hj := j.isLt
  funext a; apply Fin.ext
  match a with
  | ⟨0, _⟩ => show (b.val * 1024 + j.val) / 1024 = b.val; omega
  | ⟨1, _⟩ => rfl
  | ⟨2, _⟩ => show (b.val * 1024 + j.val) % 1024 = j.val; omega
/-- The slice `[:, 2, :]` recast reads `(b, 2, j)`. -/
theorem slice2 (b : Fin 16384) (j : Fin 1024) : idx_main_v25 (idx_main_v26 (ix2 b j)) = ix3 b 2 j := by
  have hb := b.isLt; have hj := j.isLt
  funext a; apply Fin.ext
  match a with
  | ⟨0, _⟩ => show (b.val * 1024 + j.val) / 1024 = b.val; omega
  | ⟨1, _⟩ => rfl
  | ⟨2, _⟩ => show (b.val * 1024 + j.val) % 1024 = j.val; omega
/-- The slice `[:, 3, :]` recast reads `(b, 3, j)`. -/
theorem slice3 (b : Fin 16384) (j : Fin 1024) : idx_main_v28 (idx_main_v29 (ix2 b j)) = ix3 b 3 j := by
  have hb := b.isLt; have hj := j.isLt
  funext a; apply Fin.ext
  match a with
  | ⟨0, _⟩ => show (b.val * 1024 + j.val) / 1024 = b.val; omega
  | ⟨1, _⟩ => rfl
  | ⟨2, _⟩ => show (b.val * 1024 + j.val) % 1024 = j.val; omega

/-! ## The pre-activations -/

/-- The reference's array of pre-activations at `(b, g, j)` is gate `g`'s pre-activation of row `b` at unit `j`. -/
theorem gate_read (b : Fin 16384) (g : Fin 4) (j : Fin 1024) :
    val_main_v8 (F := Ideal) x0 x1 x3 x4 x5 x6 (ix3 b g j) = gate x0 x1 x3 x4 x5 x6 b g j := by
  rw [val_main_v8_apply, val_main_v3_apply, val_main_v7_apply, val_main_v0_apply, val_main_v4_apply,
    val_main_v2_apply, val_main_v1_apply, val_main_v6_apply, val_main_v5_apply, bias_v2, bias_v6]
  simp only [lidx_v0, ridx_v0, lidx_v4, ridx_v4]
  rfl

/-! ## The four gates -/

/-- The input gate. -/
theorem input_gate (b : Fin 16384) (j : Fin 1024) :
    val_main_v16 (F := Ideal) x0 x1 x3 x4 x5 x6 (ix2 b j) = Ideal.logistic (gate x0 x1 x3 x4 x5 x6 b 0 j) := by
  rw [val_main_v16_apply, val_main_v15_apply, val_main_cst_0_apply, val_main_v14_apply, val_main_v13_apply,
    val_main_cst_apply, val_main_v12_apply, val_main_v11_apply, val_main_v10_apply, val_main_v9_apply, slice0, gate_read]
  exact logistic_spelled _

/-- The forget gate. -/
theorem forget_gate (b : Fin 16384) (j : Fin 1024) :
    val_main_v24 (F := Ideal) x0 x1 x3 x4 x5 x6 (ix2 b j) = Ideal.logistic (gate x0 x1 x3 x4 x5 x6 b 1 j) := by
  rw [val_main_v24_apply, val_main_v23_apply, val_main_cst_2_apply, val_main_v22_apply, val_main_v21_apply,
    val_main_cst_1_apply, val_main_v20_apply, val_main_v19_apply, val_main_v18_apply, val_main_v17_apply, slice1, gate_read]
  exact logistic_spelled _

/-- The candidate cell values. -/
theorem cell_gate (b : Fin 16384) (j : Fin 1024) :
    val_main_v27 (F := Ideal) x0 x1 x3 x4 x5 x6 (ix2 b j) = Ideal.tanh (gate x0 x1 x3 x4 x5 x6 b 2 j) := by
  rw [val_main_v27_apply, val_main_v26_apply, val_main_v25_apply, slice2, gate_read]
  rfl

/-- The output gate. -/
theorem output_gate (b : Fin 16384) (j : Fin 1024) :
    val_main_v35 (F := Ideal) x0 x1 x3 x4 x5 x6 (ix2 b j) = Ideal.logistic (gate x0 x1 x3 x4 x5 x6 b 3 j) := by
  rw [val_main_v35_apply, val_main_v34_apply, val_main_cst_4_apply, val_main_v33_apply, val_main_v32_apply,
    val_main_cst_3_apply, val_main_v31_apply, val_main_v30_apply, val_main_v29_apply, val_main_v28_apply, slice3, gate_read]
  exact logistic_spelled _

/-! ## The two results -/

/-- The reference's first result is the new cell state. -/
theorem cell_eq : val_main_v38 (F := Ideal) x0 x1 x2 x3 x4 x5 x6 = newCell x0 x1 x2 x3 x4 x5 x6 := by
  funext i
  obtain ⟨b, j, rfl⟩ : ∃ (b : Fin 16384) (j : Fin 1024), i = ix2 b j := ⟨i 0, i 1, eq_ix2 i⟩
  rw [val_main_v38_apply, val_main_v36_apply, val_main_v37_apply, forget_gate, input_gate, cell_gate]
  rfl

/-- The reference's second result is the new hidden state. -/
theorem hidden_eq : val_main_v40 (F := Ideal) x0 x1 x2 x3 x4 x5 x6 = newHidden x0 x1 x2 x3 x4 x5 x6 := by
  funext i
  obtain ⟨b, j, rfl⟩ : ∃ (b : Fin 16384) (j : Fin 1024), i = ix2 b j := ⟨i 0, i 1, eq_ix2 i⟩
  rw [val_main_v40_apply, val_main_v39_apply, output_gate, cell_eq]
  rfl

end Cert.Lstm.Ref

end
-- ==== Proof.LibTransDot.lean ====
/-
  A matrix product against a transposed right operand.

  For a two-axis contraction `[M, K] × [N, K] → [M, N]` whose dimension numbers contract the second axis of both
  operands and keep the other two in order (`TransDot`), the sum over the contraction index at output `(r, c)` is
  `∑ k : Fin K, x (r, k) · w (c, k)` (`sum_contr_trans_eq`), and so is the product into a zero accumulator read at
  `(r, c)` (`matmul_zero_trans_apply`). Only the commutative monoid of the extended reals' addition is used.
-/
import Idealize.ShloMosaic.Lib.ValueIdx
import Idealize.ShloMosaic.PureOps.Ideal.Laws

noncomputable section

namespace Idealize.ShloMosaic.TransDot

open Idealize.ShloMosaic Idealize.ShloMosaic.ValueIdx

/-- The dimension numbers of a product with a transposed right operand: one contracted axis of extent `K`; the left
    operand's index at output `j` and contraction index `q` is `(j 0, q)`, the right operand's `(j 1, q)`. -/
structure TransDot {M K N : Nat} (d : DotDims (⟨2, ![M, K]⟩ : Shape) (⟨2, ![N, K]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

variable {M K N : Nat}

/-- The contraction's sum at output `j` is the sum over `k : Fin K` of `x (j 0, k) · w (j 1, k)`. -/
theorem sum_contr_trans_eq (d : DotDims (⟨2, ![M, K]⟩ : Shape) (⟨2, ![N, K]⟩ : Shape) (⟨2, ![M, N]⟩ : Shape)) (h : TransDot d)
    (x : (⟨2, ![M, K]⟩ : Shape).Idx → EReal) (w : (⟨2, ![N, K]⟩ : Shape).Idx → EReal) (j : (⟨2, ![M, N]⟩ : Shape).Idx) :
    ∑ q : d.contr.Idx, x (d.lhsIdx j q) * w (d.rhsIdx j q) = ∑ k : Fin K, x (ix2 (j 0) k) * w (ix2 (j 1) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 (j 1) k := funext fun a => Fin.ext (by
    match a with
    | ⟨0, _⟩ => exact h.r0 _ _
    | ⟨1, _⟩ => exact (h.r1 _ _).trans hk)
  exact congrArg₂ (· * ·) (congrArg x el) (congrArg w er)

/-- The product into the zero accumulator, read at `(p, c)`. -/
theorem matmul_zero_trans_apply {φ₁ φ₂ : FTy}
    (d : DotDims (⟨2, ![M, K]⟩ : Shape) (⟨2, ![N, K]⟩ : Shape) (⟨2, ![M, N]⟩ : Shape)) (hd : TransDot d)
    (prec : Option ContractPrecision) (lhs : FVec Ideal ⟨2, ![M, K]⟩ φ₁) (rhs : FVec Ideal ⟨2, ![N, K]⟩ φ₂) (p : Fin M) (c : Fin N) :
    matmul d prec lhs rhs (constant ⟨2, ![M, N]⟩ .f32 0x00000000#32) (ix2 p c) = ∑ k : Fin K, lhs (ix2 p k) * rhs (ix2 c k) :=
  (Ideal.matmul_constant_zero_apply d prec lhs rhs (ix2 p c)).trans (sum_contr_trans_eq d hd lhs rhs (ix2 p c))

end Idealize.ShloMosaic.TransDot

end
-- ==== Proof.PreAct.lean ====
/-
  The kernel body's pre-activations, read at an index.

  At one grid point the body holds 256 rows of the input and of the hidden state, the two weight matrices with the
  gate and unit axes merged into 4096 rows, and the bias as one row of 4096. It multiplies each block of rows by its
  weight matrix with the input unit — the trailing axis of BOTH operands — summed away, adds the two products, and
  adds the bias row to every row. At the extended reals a change of float format is the identity, so at `(p, n)` this
  is `(∑ k, X (p, k) · A (n, k) + ∑ k, H (p, k) · B (n, k)) + bias (0, n)` (`preact_read`).
-/
import proofs.«154492_j23974507446845_2_alg».proof.Proof.Gen.KernelIdeal.Skeleton
import proofs.«154492_j23974507446845_2_alg».proof.Proof.LibTransDot
import Idealize.ShloMosaic.Lib.ValueIdx
import Idealize.ShloMosaic.Lib.ValueLayout
import Idealize.ShloMosaic.Lib.Pipeline.Value

noncomputable section

namespace Cert.Lstm.Body

open Idealize.ShloMosaic Idealize.ShloMosaic.ValueIdx Idealize.ShloMosaic.TransDot Cert.KernelIdeal Cert.KernelIdeal.Gen

/-- The body's product keeps the rows of its left operand and the rows of its right operand, and sums over the
    trailing axis of both. -/
theorem trans_dot : TransDot (M := 256) (K := 1024) (N := 4096) dot_S256x1024_S4096x1024_S256x4096_1_1_0_0_n_n where
  hr := rfl
  hs := rfl
  l0 := fun j q => by
    unfold DotDims.lhsIdx
    rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
    rfl
  l1 := fun j q => dot_S256x1024_S4096x1024_S256x4096_1_1_0_0_n_n.lhsIdx_val_of_single rfl j q
  r0 := fun j q => by
    unfold DotDims.rhsIdx
    rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
    rfl
  r1 := fun j q => dot_S256x1024_S4096x1024_S256x4096_1_1_0_0_n_n.rhsIdx_val_of_single rfl j q

/-- The pre-activation block at `(p, n)`: row `p` of each block of rows against row `n` of its weight matrix, the two
    sums added, then entry `n` of the bias row. -/
theorem preact_read (P0 P1 : Vec Ideal S256x1024 .f32) (P2 P3 : Vec Ideal S4096x1024 .bf16) (P4 : Vec Ideal S1x4096 .f32)
    (p : Fin 256) (n : Fin 4096) :
    k0_pay1 (F := Ideal) P0 P1 P2 P3 P4 (ix2 p n)
      = ((∑ k : Fin 1024, P0 (ix2 p k) * P2 (ix2 n k)) + (∑ k : Fin 1024, P1 (ix2 p k) * P3 (ix2 n k)))
        + P4 (ix2 (0 : Fin 1) n) := by
  have e1 := matmul_zero_trans_apply (φ₁ := .bf16) (φ₂ := .bf16) dot_S256x1024_S4096x1024_S256x4096_1_1_0_0_n_n trans_dot none
    (truncf .bf16 (P0 : FVec Ideal S256x1024 .f32) bitsLt_bf16_f32) (P2 : FVec Ideal S4096x1024 .bf16) p n
  have e2 := matmul_zero_trans_apply (φ₁ := .bf16) (φ₂ := .bf16) dot_S256x1024_S4096x1024_S256x4096_1_1_0_0_n_n trans_dot none
    (truncf .bf16 (P1 : FVec Ideal S256x1024 .f32) bitsLt_bf16_f32) (P3 : FVec Ideal S4096x1024 .bf16) p n
  have e3 := broadcastTo_1b_ab_apply (P4 : (⟨2, ![1, 4096]⟩ : Shape).Idx → EReal) broadcasts_S1x4096_S256x4096 p n
  unfold k0_pay1
  simp only [shapeCast_self]
  exact congrArg₂ (· + ·) (congrArg₂ (· + ·) e1 e2) e3

end Cert.Lstm.Body

end
-- ==== Proof.LibRowMerge.lean ====
/-
  Merging the two leading axes of a three-axis array into one, and splitting them again, read at an index.

  A row-major array `[a, b, c]` recast as `[n, c]` with `n = a · b` keeps every entry at the same row-major position: entry
  `(p, r, k)` becomes entry `(p · b + r, k)` (`shapeCast_merge_apply`); the recast back reads entry `(p · b + r, k)` at
  `(p, r, k)` (`shapeCast_split_apply`). Generic extents; the merged row index is `rowOf`.
-/
import Idealize.ShloMosaic.Lib.ValueIdx
import Idealize.ShloMosaic.Lib.Pipeline.Value

noncomputable section

namespace Cert.Lib.RowMerge

open Idealize.ShloMosaic Idealize.ShloMosaic.ValueIdx

/-- Row `r` of block `p`, among `a` blocks of `b` rows each, as a row of the merged axis of extent `n = a · b`. -/
def rowOf {a b n : ℕ} (h : a * b = n) (p : Fin a) (r : Fin b) : Fin n :=
  ⟨p.val * b + r.val, lt_of_lt_of_eq (calc p.val * b + r.val < p.val * b + b := Nat.add_lt_add_left r.isLt _
    _ = (p.val + 1) * b := (Nat.succ_mul _ _).symm
    _ ≤ a * b := Nat.mul_le_mul_right b p.isLt) h⟩

theorem rowOf_val {a b n : ℕ} (h : a * b = n) (p : Fin a) (r : Fin b) : (rowOf h p r).val = p.val * b + r.val := rfl

/-- Every row of the merged axis is some row of some block. -/
theorem exists_rowOf {a b n : ℕ} (h : a * b = n) (hb : 0 < b) (i : Fin n) : ∃ (p : Fin a) (r : Fin b), i = rowOf h p r := by
  have hi : i.val < a * b := lt_of_lt_of_eq i.isLt h.symm
  refine ⟨⟨i.val / b, (Nat.div_lt_iff_lt_mul hb).mpr hi⟩, ⟨i.val % b, Nat.mod_lt _ hb⟩, Fin.ext ?_⟩
  show i.val = i.val / b * b + i.val % b
  rw [Nat.mul_comm]; exact (Nat.div_add_mod _ _).symm

/-- The merged array at `(p · b + r, k)` is the array at `(p, r, k)`. -/
theorem shapeCast_merge_apply {α : Type} {a b c n : ℕ} (hn : a * b = n) (x : (⟨3, ![a, b, c]⟩ : Shape).Idx → α)
    (h : (⟨3, ![a, b, c]⟩ : Shape).ShapeCasts ⟨2, ![n, c]⟩) (p : Fin a) (r : Fin b) (k : Fin c) :
    shapeCast ⟨2, ![n, c]⟩ x h (ix2 (rowOf hn p r) k) = x (ix3 p r k) :=
  shapeCast_apply x h _ _ (by
    rw [Shape.rowMajor_val_three, Shape.rowMajor_val_two]
    show (p.val * b + r.val) * c + k.val = (p.val * b + r.val) * c + k.val
    rfl)

/-- The array split again at `(p, r, k)` is the merged array at `(p · b + r, k)`. -/
theorem shapeCast_split_apply {α : Type} {a b c n : ℕ} (hn : a * b = n) (y : (⟨2, ![n, c]⟩ : Shape).Idx → α)
    (h : (⟨2, ![n, c]⟩ : Shape).ShapeCasts ⟨3, ![a, b, c]⟩) (p : Fin a) (r : Fin b) (k : Fin c) :
    shapeCast ⟨3, ![a, b, c]⟩ y h (ix3 p r k) = y (ix2 (rowOf hn p r) k) :=
  shapeCast_apply y h _ _ (by
    rw [Shape.rowMajor_val_three, Shape.rowMajor_val_two]
    show (p.val * b + r.val) * c + k.val = (p.val * b + r.val) * c + k.val
    rfl)

end Cert.Lib.RowMerge

end
-- ==== Proof.GateBlock.lean ====
/-
  What one grid point leaves in its two output blocks, as the LSTM step of Spec.lean at the point's rows.

  Suppose the body's loaded blocks are rows of the argument arrays: row `p` of the input, hidden-state and cell-state
  blocks is row `b` of those arrays; row `g · 1024 + j` of each weight block is row `j` of gate `g`'s matrix; entry
  `g · 1024 + j` of the bias row is the sum of the two biases of gate `g` at unit `j`. Then the pre-activation block at
  `(p, g · 1024 + j)` is `gate … b g j` — the body adds the two products first and the summed bias last, the
  specification each product with its own bias first; the two groupings agree (`gate_regroup`) —, and the blocks the
  body stores, which read that block at the four column ranges of 1024, are `newCell` and `newHidden` at `(b, j)`.
-/
import proofs.«154492_j23974507446845_2_alg».proof.Proof.Gen.KernelIdeal.Value
import proofs.«154492_j23974507446845_2_alg».proof.Proof.PreAct
import proofs.«154492_j23974507446845_2_alg».proof.Proof.Spec
import proofs.«154492_j23974507446845_2_alg».proof.Proof.LibRowMerge

noncomputable section

namespace Cert.Lstm.Body

open Idealize.ShloMosaic Idealize.ShloMosaic.ValueIdx Cert.KernelIdeal Cert.KernelIdeal.Gen Cert.Lstm Cert.Lib.RowMerge

/-- Four gates of 1024 units are the 4096 merged rows. -/
theorem merged : 4 * 1024 = 4096 := by decide

/-- Column `j` of the gate `g` range of a block of 4096 columns is column `g · 1024 + j`. -/
theorem col_eq (p : Fin 256) (g : Fin 4) (j : Fin 1024) (y : S256x4096.Idx)
    (h0 : (y 0).val = p.val) (h1 : (y 1).val = g.val * 1024 + j.val) : y = ix2 p (rowOf merged g j) :=
  funext fun a => Fin.ext (by match a with | ⟨0, _⟩ => exact h0 | ⟨1, _⟩ => exact h1)

section
variable (P0 P1 P5 : Vec Ideal S256x1024 .f32) (P2 P3 : Vec Ideal S4096x1024 .bf16) (P4 : Vec Ideal S1x4096 .f32)
  (x h c : Rows) (Wi Wh : Weights) (bi bh : Biases) (p : Fin 256) (b : Fin 16384)
  (h0 : ∀ k : Fin 1024, P0 (ix2 p k) = x (ix2 b k)) (h1 : ∀ k : Fin 1024, P1 (ix2 p k) = h (ix2 b k))
  (h5 : ∀ j : Fin 1024, P5 (ix2 p j) = c (ix2 b j))
  (h2 : ∀ (g : Fin 4) (j k : Fin 1024), P2 (ix2 (rowOf merged g j) k) = Wi (ix3 g j k))
  (h3 : ∀ (g : Fin 4) (j k : Fin 1024), P3 (ix2 (rowOf merged g j) k) = Wh (ix3 g j k))
  (h4 : ∀ (g : Fin 4) (j : Fin 1024), P4 (ix2 (0 : Fin 1) (rowOf merged g j)) = bi (ix2 g j) + bh (ix2 g j))

include h0 h1 h2 h3 h4 in
/-- The pre-activation block at row `p`, column `g · 1024 + j`, is gate `g`'s pre-activation of row `b` at unit `j`. -/
theorem preact_is_gate (g : Fin 4) (j : Fin 1024) :
    k0_pay1 (F := Ideal) P0 P1 P2 P3 P4 (ix2 p (rowOf merged g j)) = gate x h Wi Wh bi bh b g j := by
  rw [preact_read, h4, ← gate_regroup]
  simp only [h0, h1, h2, h3]

include h0 h1 h2 h3 h4 h5 in
/-- The first stored block at `(p, j)` is the new cell state at `(b, j)`. -/
theorem cell_block (j : Fin 1024) :
    Value.E6 (F := Ideal) P0 P1 P2 P3 P4 P5 (ix2 p j) = newCell x h c Wi Wh bi bh (ix2 b j) := by
  have g0 := preact_is_gate P0 P1 P2 P3 P4 x h Wi Wh bi bh p b h0 h1 h2 h3 h4 0 j
  have g1 := preact_is_gate P0 P1 P2 P3 P4 x h Wi Wh bi bh p b h0 h1 h2 h3 h4 1 j
  have g2 := preact_is_gate P0 P1 P2 P3 P4 x h Wi Wh bi bh p b h0 h1 h2 h3 h4 2 j
  have i0 : Value.ix6_0 (ix2 p j) = ix2 p (rowOf merged 1 j) :=
    col_eq p 1 j _ rfl (by show j.val + 1024 = 1 * 1024 + j.val; omega)
  have i1 : Value.ix6_1 (ix2 p j) = ix2 p j := funext fun a => by match a with | ⟨0, _⟩ => rfl | ⟨1, _⟩ => rfl
  have i2 : Value.ix6_2 (ix2 p j) = ix2 p (rowOf merged 0 j) :=
    col_eq p 0 j _ rfl (by show j.val = 0 * 1024 + j.val; omega)
  have i3 : Value.ix6_3 (ix2 p j) = ix2 p (rowOf merged 2 j) :=
    col_eq p 2 j _ rfl (by show j.val + 2048 = 2 * 1024 + j.val; omega)
  show FloatOps.addf (FloatOps.mulf (FloatOps.logistic (k0_pay1 P0 P1 P2 P3 P4 (Value.ix6_0 (ix2 p j)))) (P5 (Value.ix6_1 (ix2 p j))))
      (FloatOps.mulf (FloatOps.logistic (k0_pay1 P0 P1 P2 P3 P4 (Value.ix6_2 (ix2 p j))))
        (FloatOps.tanh (k0_pay1 P0 P1 P2 P3 P4 (Value.ix6_3 (ix2 p j))))) = _
  rw [i0, i1, i2, i3, g0, g1, g2, h5]
  rfl

include h0 h1 h2 h3 h4 h5 in
/-- The second stored block at `(p, j)` is the new hidden state at `(b, j)`. -/
theorem hidden_block (j : Fin 1024) :
    Value.E7 (F := Ideal) P0 P1 P2 P3 P4 P5 (ix2 p j) = newHidden x h c Wi Wh bi bh (ix2 b j) := by
  have g0 := preact_is_gate P0 P1 P2 P3 P4 x h Wi Wh bi bh p b h0 h1 h2 h3 h4 0 j
  have g1 := preact_is_gate P0 P1 P2 P3 P4 x h Wi Wh bi bh p b h0 h1 h2 h3 h4 1 j
  have g2 := preact_is_gate P0 P1 P2 P3 P4 x h Wi Wh bi bh p b h0 h1 h2 h3 h4 2 j
  have g3 := preact_is_gate P0 P1 P2 P3 P4 x h Wi Wh bi bh p b h0 h1 h2 h3 h4 3 j
  have i0 : Value.ix7_0 (ix2 p j) = ix2 p (rowOf merged 3 j) :=
    col_eq p 3 j _ rfl (by show j.val + 3072 = 3 * 1024 + j.val; omega)
  have i1 : Value.ix7_1 (ix2 p j) = ix2 p (rowOf merged 1 j) :=
    col_eq p 1 j _ rfl (by show j.val + 1024 = 1 * 1024 + j.val; omega)
  have i2 : Value.ix7_2 (ix2 p j) = ix2 p j := funext fun a => by match a with | ⟨0, _⟩ => rfl | ⟨1, _⟩ => rfl
  have i3 : Value.ix7_3 (ix2 p j) = ix2 p (rowOf merged 0 j) :=
    col_eq p 0 j _ rfl (by show j.val = 0 * 1024 + j.val; omega)
  have i4 : Value.ix7_4 (ix2 p j) = ix2 p (rowOf merged 2 j) :=
    col_eq p 2 j _ rfl (by show j.val + 2048 = 2 * 1024 + j.val; omega)
  show FloatOps.mulf (FloatOps.logistic (k0_pay1 P0 P1 P2 P3 P4 (Value.ix7_0 (ix2 p j))))
      (FloatOps.tanh (FloatOps.addf (FloatOps.mulf (FloatOps.logistic (k0_pay1 P0 P1 P2 P3 P4 (Value.ix7_1 (ix2 p j)))) (P5 (Value.ix7_2 (ix2 p j))))
        (FloatOps.mulf (FloatOps.logistic (k0_pay1 P0 P1 P2 P3 P4 (Value.ix7_3 (ix2 p j))))
          (FloatOps.tanh (k0_pay1 P0 P1 P2 P3 P4 (Value.ix7_4 (ix2 p j))))))) = _
  rw [i0, i1, i2, i3, i4, g0, g1, g2, g3, h5]
  rfl

end

end Cert.Lstm.Body

end
-- ==== Proof.Blocks.lean ====
/-
  From the grid's blocks to the two whole result arrays.

  The kernel runs its body at 64 grid points. Point `t` is handed rows `256 t … 256 t + 255` of the input, the hidden
  state and the cell state, and — at every point — the whole of the two merged weight matrices and of the bias row,
  which the host prepared before the launch: each weight array `[gate, unit, input]` recast to `[gate · 1024 + unit,
  input]`, the two bias arrays added and recast to one row. The point writes the same rows of the two results. So what
  it writes back is block `t` of `newCell`, respectively `newHidden`, of the argument arrays (`flushed6_eq`,
  `flushed7_eq`); every row of a result lies in the block of the point `row / 256` (`cover6`, `cover7`); hence after
  the run each result array IS that function of the arguments (`final6`, `final7`, `run`).
-/
import proofs.«154492_j23974507446845_2_alg».proof.Proof.Gen.KernelIdeal.Value
import proofs.«154492_j23974507446845_2_alg».proof.Proof.GateBlock
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Lstm.Blocks

open Cert.KernelIdeal Cert.KernelIdeal.Gen Cert.KernelIdeal.Value Cert.Lstm Cert.Lstm.Body Cert.Lib.RowMerge

variable (m : (ℓ : Loc nD τ sig) → Buf (Elt Ideal) ℓ) (ρ : Dev nD → PrngReg)

theorem hz : (![0, 0] : Fin 2 → Nat) = fun _ => 0 := funext fun a => by fin_cases a <;> rfl

/-! ## The argument arrays of core `c` -/

/-- The input rows. -/
abbrev argX (c : Dev nD) : S16384x1024.Idx → EReal := m ((c : Thread nD τ).loc main_arg0)
/-- The hidden-state rows. -/
abbrev argH (c : Dev nD) : S16384x1024.Idx → EReal := m ((c : Thread nD τ).loc main_arg1)
/-- The cell-state rows. -/
abbrev argC (c : Dev nD) : S16384x1024.Idx → EReal := m ((c : Thread nD τ).loc main_arg2)
/-- The weights applied to the input. -/
abbrev argWi (c : Dev nD) : S4x1024x1024.Idx → EReal := m ((c : Thread nD τ).loc main_arg3)
/-- The weights applied to the hidden state. -/
abbrev argWh (c : Dev nD) : S4x1024x1024.Idx → EReal := m ((c : Thread nD τ).loc main_arg4)
/-- The first bias. -/
abbrev argBi (c : Dev nD) : S4x1024.Idx → EReal := m ((c : Thread nD τ).loc main_arg5)
/-- The second bias. -/
abbrev argBh (c : Dev nD) : S4x1024.Idx → EReal := m ((c : Thread nD τ).loc main_arg6)

/-! ## The two results as functions of the arguments -/

/-- The new cell state of the argument arrays of core `c`. -/
abbrev cellOf (c : Dev nD) : S16384x1024.Idx → EReal :=
  newCell (argX m c) (argH m c) (argC m c) (argWi m c) (argWh m c) (argBi m c) (argBh m c)

/-- The new hidden state of the argument arrays of core `c`. -/
abbrev hiddenOf (c : Dev nD) : S16384x1024.Idx → EReal :=
  newHidden (argX m c) (argH m c) (argC m c) (argWi m c) (argWh m c) (argBi m c) (argBh m c)

/-! ## The index maps, decided over the 64 grid points -/

/-- The windows over rows (the three inputs, the two results) are at block `(t, 0)` at point `t`; the windows over the
    weights and the bias stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s block of rows, as a row of the array. -/
def rowAt (t : Fin cfg0.N) (p : Fin 256) : Fin 16384 :=
  ⟨t.val * 256 + p.val, by have h := t.isLt; have hN : cfg0.N = 64 := N_0; have hp := p.isLt; omega⟩

/-! ## The arrays the host prepared -/

/-- The first merged weight matrix as the launch finds it. -/
theorem V_wi (c : Dev nD) :
    (V m c main_v1 : S4096x1024.Idx → EReal)
      = (truncf (F := Ideal) .bf16 (shapeCast S4096x1024 (argWi m c) shapeCasts_S4x1024x1024_S4096x1024) bitsLt_bf16_f32 : S4096x1024.Idx → EReal) := by
  dsimp only [Gen.V, Gen.hostOps0]; after_results; rfl

/-- The second merged weight matrix as the launch finds it. -/
theorem V_wh (c : Dev nD) :
    (V m c main_v3 : S4096x1024.Idx → EReal)
      = (truncf (F := Ideal) .bf16 (shapeCast S4096x1024 (argWh m c) shapeCasts_S4x1024x1024_S4096x1024) bitsLt_bf16_f32 : S4096x1024.Idx → EReal) := by
  dsimp only [Gen.V, Gen.hostOps0]; after_results; rfl

/-- The bias row as the launch finds it. -/
theorem V_bias (c : Dev nD) :
    (V m c main_v5 : S1x4096.Idx → EReal)
      = (shapeCast S1x4096 (addf (F := Ideal) (φ := .f32) (argBi m c) (argBh m c)) shapeCasts_S4x1024_S1x4096 : S1x4096.Idx → EReal) := by
  dsimp only [Gen.V, Gen.hostOps0]; after_results; rfl

/-! ## The input blocks at a point -/

/-- Row `p` of window 0's block at point `t` is row `256 t + p` of its argument. -/
theorem rows0 (c : Dev nD) (t : Fin cfg0.N) (p : Fin 256) (k : Fin 1024) :
    (iblk m c 0 t : Vec Ideal S256x1024 .f32) (ix2 p k) = (argX m c) (ix2 (rowAt t p) k) := by
  obtain ⟨e00, e01, e10, e11, e20, e21, e30, e31, e40, e41, e50, e51, e60, e61, e70, e71⟩ := idx_facts t
  unfold iblk
  rw [View.read_apply]
  show V m c main_arg0 _ = _
  rw [V_main_arg0]
  congr 1
  funext a; apply Fin.ext
  match a with
  | ⟨0, _⟩ => show win0_0.index t (0 : Fin 2) * 256 + 1 * p.val = t.val * 256 + p.val; rw [e00]; omega
  | ⟨1, _⟩ => show win0_0.index t (1 : Fin 2) * 1024 + 1 * k.val = k.val; rw [e01]; omega

/-- Row `p` of window 1's block at point `t` is row `256 t + p` of its argument. -/
theorem rows1 (c : Dev nD) (t : Fin cfg0.N) (p : Fin 256) (k : Fin 1024) :
    (iblk m c 1 t : Vec Ideal S256x1024 .f32) (ix2 p k) = (argH m c) (ix2 (rowAt t p) k) := by
  obtain ⟨e00, e01, e10, e11, e20, e21, e30, e31, e40, e41, e50, e51, e60, e61, e70, e71⟩ := idx_facts t
  unfold iblk
  rw [View.read_apply]
  show V m c main_arg1 _ = _
  rw [V_main_arg1]
  congr 1
  funext a; apply Fin.ext
  match a with
  | ⟨0, _⟩ => show win0_1.index t (0 : Fin 2) * 256 + 1 * p.val = t.val * 256 + p.val; rw [e10]; omega
  | ⟨1, _⟩ => show win0_1.index t (1 : Fin 2) * 1024 + 1 * k.val = k.val; rw [e11]; omega

/-- Row `p` of window 2's block at point `t` is row `256 t + p` of its argument. -/
theorem rows2 (c : Dev nD) (t : Fin cfg0.N) (p : Fin 256) (k : Fin 1024) :
    (iblk m c 2 t : Vec Ideal S256x1024 .f32) (ix2 p k) = (argC m c) (ix2 (rowAt t p) k) := by
  obtain ⟨e00, e01, e10, e11, e20, e21, e30, e31, e40, e41, e50, e51, e60, e61, e70, e71⟩ := idx_facts t
  unfold iblk
  rw [View.read_apply]
  show V m c main_arg2 _ = _
  rw [V_main_arg2]
  congr 1
  funext a; apply Fin.ext
  match a with
  | ⟨0, _⟩ => show win0_2.index t (0 : Fin 2) * 256 + 1 * p.val = t.val * 256 + p.val; rw [e20]; omega
  | ⟨1, _⟩ => show win0_2.index t (1 : Fin 2) * 1024 + 1 * k.val = k.val; rw [e21]; omega

/-- Row `g · 1024 + j` of window 3's block is row `j` of gate `g`'s input matrix: the host merged the gate and unit axes
    (and changed the float format, the identity here), and the block is the whole merged array at every point. -/
theorem weights3 (c : Dev nD) (t : Fin cfg0.N) (g : Fin 4) (j k : Fin 1024) :
    (iblk m c 3 t : Vec Ideal S4096x1024 .bf16) (ix2 (rowOf merged g j) k) = (argWi m c) (ix3 g j k) := by
  obtain ⟨e00, e01, e10, e11, e20, e21, e30, e31, e40, e41, e50, e51, e60, e61, e70, e71⟩ := idx_facts t
  unfold iblk
  rw [View.read_apply]
  show V m c main_v1 _ = _
  rw [V_wi]
  refine Eq.trans ?_ (shapeCast_merge_apply merged (argWi m c) shapeCasts_S4x1024x1024_S4096x1024 g j k)
  show shapeCast S4096x1024 (argWi m c) shapeCasts_S4x1024x1024_S4096x1024 _ = _
  congr 1
  funext a; apply Fin.ext
  match a with
  | ⟨0, _⟩ => show win0_3.index t (0 : Fin 2) * 4096 + 1 * (rowOf merged g j).val = (rowOf merged g j).val; rw [e30]; omega
  | ⟨1, _⟩ => show win0_3.index t (1 : Fin 2) * 1024 + 1 * k.val = k.val; rw [e31]; omega

/-- Row `g · 1024 + j` of window 4's block is row `j` of gate `g`'s hidden matrix: the host merged the gate and unit axes
    (and changed the float format, the identity here), and the block is the whole merged array at every point. -/
theorem weights4 (c : Dev nD) (t : Fin cfg0.N) (g : Fin 4) (j k : Fin 1024) :
    (iblk m c 4 t : Vec Ideal S4096x1024 .bf16) (ix2 (rowOf merged g j) k) = (argWh m c) (ix3 g j k) := by
  obtain ⟨e00, e01, e10, e11, e20, e21, e30, e31, e40, e41, e50, e51, e60, e61, e70, e71⟩ := idx_facts t
  unfold iblk
  rw [View.read_apply]
  show V m c main_v3 _ = _
  rw [V_wh]
  refine Eq.trans ?_ (shapeCast_merge_apply merged (argWh m c) shapeCasts_S4x1024x1024_S4096x1024 g j k)
  show shapeCast S4096x1024 (argWh m c) shapeCasts_S4x1024x1024_S4096x1024 _ = _
  congr 1
  funext a; apply Fin.ext
  match a with
  | ⟨0, _⟩ => show win0_4.index t (0 : Fin 2) * 4096 + 1 * (rowOf merged g j).val = (rowOf merged g j).val; rw [e40]; omega
  | ⟨1, _⟩ => show win0_4.index t (1 : Fin 2) * 1024 + 1 * k.val = k.val; rw [e41]; omega

/-- Entry `g · 1024 + j` of the bias row is the sum of the two biases of gate `g` at unit `j`. -/
theorem bias5 (c : Dev nD) (t : Fin cfg0.N) (g : Fin 4) (j : Fin 1024) :
    (iblk m c 5 t : Vec Ideal S1x4096 .f32) (ix2 (0 : Fin 1) (rowOf merged g j)) = (argBi m c) (ix2 g j) + (argBh m c) (ix2 g j) := by
  obtain ⟨e00, e01, e10, e11, e20, e21, e30, e31, e40, e41, e50, e51, e60, e61, e70, e71⟩ := idx_facts t
  unfold iblk
  rw [View.read_apply]
  show V m c main_v5 _ = _
  rw [V_bias]
  refine (shapeCast_apply (addf (F := Ideal) (φ := .f32) (argBi m c) (argBh m c)) shapeCasts_S4x1024_S1x4096 _ (ix2 g j) ?_).trans rfl
  rw [Shape.rowMajor_val_two, Shape.rowMajor_val_two]
  show g.val * 1024 + j.val = (win0_5.index t (0 : Fin 2) * 1 + 1 * 0) * 4096 + (win0_5.index t (1 : Fin 2) * 4096 + 1 * (rowOf merged g j).val)
  rw [e50, e51, rowOf_val]; omega

/-! ## What a point writes back -/

/-- What point `t` writes back to the first result array is block `t` of `cellOf`. -/
theorem flushed6_eq (c : Dev nD) (t : Fin cfg0.N) :
    (dats m 0 c).flushed 6 t = ((cfg0.win 6).blk t).view.read (Elt Ideal) (cellOf m c) := by
  obtain ⟨e00, e01, e10, e11, e20, e21, e30, e31, e40, e41, e50, e51, e60, e61, e70, e71⟩ := idx_facts t
  rw [Value.flushed6]
  funext y
  obtain ⟨p, j, rfl⟩ : ∃ (p : Fin 256) (j : Fin 1024), y = ix2 p j := ⟨y 0, y 1, eq_ix2 y⟩
  show out0_6 (iblk m c 0 t) (iblk m c 1 t) (iblk m c 2 t) (iblk m c 3 t) (iblk m c 4 t) (iblk m c 5 t) (ix2 p j)
    = cellOf m c (((cfg0.win 6).blk t).view.emb (ix2 p j))
  unfold out0_6
  simp only [View.ld_unit_zero (S := S256x1024) hz, View.ld_unit_zero (S := S4096x1024) hz, View.ld_unit_zero (S := S1x4096) hz]
  refine (Value.canon6_eq (iblk m c 0 t) (iblk m c 1 t) (iblk m c 3 t) (iblk m c 4 t) (iblk m c 5 t) (iblk m c 2 t) (ix2 p j)).trans ?_
  refine (cell_block (P0 := iblk m c 0 t) (P1 := iblk m c 1 t) (P5 := iblk m c 2 t) (P2 := iblk m c 3 t) (P3 := iblk m c 4 t)
    (P4 := iblk m c 5 t) (x := (argX m c)) (h := (argH m c)) (c := (argC m c)) (Wi := (argWi m c)) (Wh := (argWh m c))
    (bi := (argBi m c)) (bh := (argBh m c)) (p := p) (b := rowAt t p)
    (h0 := rows0 m c t p) (h1 := rows1 m c t p) (h5 := rows2 m c t p)
    (h2 := weights3 m c t) (h3 := weights4 m c t) (h4 := bias5 m c t) j).trans ?_
  show cellOf m c (ix2 (rowAt t p) j) = _
  congr 1
  funext a; apply Fin.ext
  match a with
  | ⟨0, _⟩ => show t.val * 256 + p.val = win0_6.index t (0 : Fin 2) * 256 + 1 * p.val; rw [e60]; omega
  | ⟨1, _⟩ => show j.val = win0_6.index t (1 : Fin 2) * 1024 + 1 * j.val; rw [e61]; omega

/-- What point `t` writes back to the second result array is block `t` of `hiddenOf`. -/
theorem flushed7_eq (c : Dev nD) (t : Fin cfg0.N) :
    (dats m 0 c).flushed 7 t = ((cfg0.win 7).blk t).view.read (Elt Ideal) (hiddenOf m c) := by
  obtain ⟨e00, e01, e10, e11, e20, e21, e30, e31, e40, e41, e50, e51, e60, e61, e70, e71⟩ := idx_facts t
  rw [Value.flushed7]
  funext y
  obtain ⟨p, j, rfl⟩ : ∃ (p : Fin 256) (j : Fin 1024), y = ix2 p j := ⟨y 0, y 1, eq_ix2 y⟩
  show out0_7 (iblk m c 0 t) (iblk m c 1 t) (iblk m c 2 t) (iblk m c 3 t) (iblk m c 4 t) (iblk m c 5 t) (ix2 p j)
    = hiddenOf m c (((cfg0.win 7).blk t).view.emb (ix2 p j))
  unfold out0_7
  simp only [View.ld_unit_zero (S := S256x1024) hz, View.ld_unit_zero (S := S4096x1024) hz, View.ld_unit_zero (S := S1x4096) hz]
  refine (Value.canon7_eq (iblk m c 0 t) (iblk m c 1 t) (iblk m c 3 t) (iblk m c 4 t) (iblk m c 5 t) (iblk m c 2 t) (ix2 p j)).trans ?_
  refine (hidden_block (P0 := iblk m c 0 t) (P1 := iblk m c 1 t) (P5 := iblk m c 2 t) (P2 := iblk m c 3 t) (P3 := iblk m c 4 t)
    (P4 := iblk m c 5 t) (x := (argX m c)) (h := (argH m c)) (c := (argC m c)) (Wi := (argWi m c)) (Wh := (argWh m c))
    (bi := (argBi m c)) (bh := (argBh m c)) (p := p) (b := rowAt t p)
    (h0 := rows0 m c t p) (h1 := rows1 m c t p) (h5 := rows2 m c t p)
    (h2 := weights3 m c t) (h3 := weights4 m c t) (h4 := bias5 m c t) j).trans ?_
  show hiddenOf m c (ix2 (rowAt t p) j) = _
  congr 1
  funext a; apply Fin.ext
  match a with
  | ⟨0, _⟩ => show t.val * 256 + p.val = win0_7.index t (0 : Fin 2) * 256 + 1 * p.val; rw [e70]; omega
  | ⟨1, _⟩ => show j.val = win0_7.index t (1 : Fin 2) * 1024 + 1 * j.val; rw [e71]; omega

/-! ## The blocks cover the arrays -/

/-- An index of the array is in point `t`'s block iff each coordinate is in the block's range on its axis. -/
theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_0).slice (win0_6.rect t)).set ↔ _
  rw [View.set_slice_whole, Rect.mem_set_unit]
  exact Iff.rfl

/-- Row `r` of the array is in the block of point `r / 256`: the 64 blocks of 256 rows tile the 16384 rows. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 64 := N_0
  obtain ⟨t, ht⟩ : ∃ t : Fin cfg0.N, t.val = (i 0).val / 256 := ⟨⟨(i 0).val / 256, by omega⟩, rfl⟩
  obtain ⟨e00, e01, e10, e11, e20, e21, e30, e31, e40, e41, e50, e51, e60, e61, e70, e71⟩ := idx_facts t
  refine ⟨t, flush0_6 t, ?_⟩
  rw [mem_blk6]
  intro a
  match a with
  | ⟨0, _⟩ =>
    show win0_6.index t (0 : Fin 2) * 256 ≤ (i 0).val ∧ (i 0).val < win0_6.index t (0 : Fin 2) * 256 + 256
    rw [e60, ht]; omega
  | ⟨1, _⟩ =>
    show win0_6.index t (1 : Fin 2) * 1024 ≤ (i 1).val ∧ (i 1).val < win0_6.index t (1 : Fin 2) * 1024 + 1024
    rw [e61]; omega

/-- An index of the array is in point `t`'s block iff each coordinate is in the block's range on its axis. -/
theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_1).slice (win0_7.rect t)).set ↔ _
  rw [View.set_slice_whole, Rect.mem_set_unit]
  exact Iff.rfl

/-- Row `r` of the array is in the block of point `r / 256`: the 64 blocks of 256 rows tile the 16384 rows. -/
theorem cover7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 64 := N_0
  obtain ⟨t, ht⟩ : ∃ t : Fin cfg0.N, t.val = (i 0).val / 256 := ⟨⟨(i 0).val / 256, by omega⟩, rfl⟩
  obtain ⟨e00, e01, e10, e11, e20, e21, e30, e31, e40, e41, e50, e51, e60, e61, e70, e71⟩ := idx_facts t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    rw [e70, ht]; omega
  | ⟨1, _⟩ =>
    show win0_7.index t (1 : Fin 2) * 1024 ≤ (i 1).val ∧ (i 1).val < win0_7.index t (1 : Fin 2) * 1024 + 1024
    rw [e71]; omega

/-! ## The arrays after the run -/

/-- The first result array ends holding the new cell state. -/
theorem final6 (c : Dev nD) : (dats m 0 c).arrAt 6 cfg0.N = cellOf m c :=
  (dats m 0 c).arrAt_eq_of_cover 6 (cellOf m c) (fun t _ => flushed6_eq m c t) cover6

/-- The second result array ends holding the new hidden state. -/
theorem final7 (c : Dev nD) : (dats m 0 c).arrAt 7 cfg0.N = hiddenOf m c :=
  (dats m 0 c).arrAt_eq_of_cover 7 (hiddenOf m c) (fun t _ => flushed7_eq m c t) cover7

/-- The kernel's run, read: each result array at its function of the arguments, the arguments unchanged. -/
theorem run : θ_run defs (onTc (τ := τ) (main (F := Ideal))) ⟨m, fun _ => 0, ρ⟩ fun r => ∀ c : Dev nD,
      r.2.mem ((c : Thread nD τ).loc main_v6_0) = cellOf m c
      ∧ r.2.mem ((c : Thread nD τ).loc main_v6_1) = hiddenOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.Lstm.Blocks

end
-- ==== Proof.lean ====
/-
  One LSTM cell step over a batch of 16384 rows: a kernel that tiles the batch into 64 blocks of 256 rows against the
  plain jnp computation, equal on the extended reals.

  Both programs compute, for every batch row `b` and hidden unit `j`, the four gates' pre-activations
  `∑ k, x (b, k) · Wi (g, j, k) + ∑ k, h (b, k) · Wh (g, j, k) + bi (g, j) + bh (g, j)`, the new cell state
  `σ(forget) · c + σ(input) · tanh(cell)` and the new hidden state `σ(output) · tanh(new cell)` (Proof/Spec.lean). They
  differ in how they arrange it. The kernel merges the gate and unit axes of each weight array into 4096 rows, adds the
  two biases first and the two products first, uses one logistic operation, and computes the 16384 rows 256 at a time;
  the reference keeps the three axes, adds each bias to its own product, spells the logistic function as
  `1 / (1 + exp (-x))`, and slices the gates out of one array. Neither difference changes an extended real: a sum of
  four terms does not depend on its grouping, at the infinities too, and the quotient is the logistic function. So the
  claim holds without using that the inputs are finite.

  The reference's results are the two functions of Spec.lean (Proof/RefIsSpec.lean, over the generated reading of the
  reference's operations); the kernel's body at an index is read in Proof/PreAct.lean and Proof/GateBlock.lean, and its
  64 blocks are assembled into the whole arrays in Proof/Blocks.lean (over the generated value leg of the kernel's
  frame run). The kernel's idealization rewrote no operation, so `preserves` is `True`.
-/
import proofs.«154492_j23974507446845_2_alg».proof.Defs
import proofs.«154492_j23974507446845_2_alg».proof.Proof.Gen.Kernel
import proofs.«154492_j23974507446845_2_alg».proof.Proof.Gen.Kernel.Skeleton
import proofs.«154492_j23974507446845_2_alg».proof.Proof.Gen.Kernel.Launch
import proofs.«154492_j23974507446845_2_alg».proof.Proof.Gen.Kernel.Points
import proofs.«154492_j23974507446845_2_alg».proof.Proof.Gen.Kernel.Frame
import proofs.«154492_j23974507446845_2_alg».proof.Proof.Gen.KernelIdeal
import proofs.«154492_j23974507446845_2_alg».proof.Proof.Gen.KernelIdeal.Skeleton
import proofs.«154492_j23974507446845_2_alg».proof.Proof.Gen.KernelIdeal.Launch
import proofs.«154492_j23974507446845_2_alg».proof.Proof.Gen.KernelIdeal.Points
import proofs.«154492_j23974507446845_2_alg».proof.Proof.Gen.KernelIdeal.Frame
import proofs.«154492_j23974507446845_2_alg».proof.Proof.Gen.ReferenceIdeal
import proofs.«154492_j23974507446845_2_alg».proof.Proof.Gen.Pre_finite_inputs
import proofs.«154492_j23974507446845_2_alg».proof.Proof.Gen.KernelIdeal.Value
import proofs.«154492_j23974507446845_2_alg».proof.Proof.Gen.ReferenceIdeal.Run
import proofs.«154492_j23974507446845_2_alg».proof.Proof.Gen.ReferenceIdeal.Read
import proofs.«154492_j23974507446845_2_alg».proof.Proof.RefIsSpec
import proofs.«154492_j23974507446845_2_alg».proof.Proof.Blocks
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the seven arguments both programs end with the new cell state and the new hidden
    state of those arguments. -/
theorem algebraic : Cert.algebraic_KernelIdeal_ReferenceIdeal := by
  intro m ρ m' ρ' _ hagree
  refine ⟨fun c => Cert.Lstm.Blocks.cellOf m c, fun c => Cert.Lstm.Blocks.hiddenOf m c, Cert.Lstm.Blocks.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [Cert.ReferenceIdeal.Read.val_main_v38_eq, Cert.Lstm.Ref.cell_eq, a0, a1, a2, a3, a4, a5, a6]
  · rw [Cert.ReferenceIdeal.Read.val_main_v40_eq, Cert.Lstm.Ref.hidden_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
